-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S16x1024x2 : Shape := ⟨3, ![16, 1024, 2]⟩
abbrev S16 : Shape := ⟨1, ![16]⟩
abbrev S_ : Shape := ⟨0, ![]⟩
abbrev S16x1024x1 : Shape := ⟨3, ![16, 1024, 1]⟩
abbrev S16x1024 : Shape := ⟨2, ![16, 1024]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  slices_S16x1024x2_S16x1024x1_0_0_1 : S16x1024x2.Slices ![0, 0, 1] S16x1024x1
  shapeCasts_S16x1024x1_S16x1024 : S16x1024x1.ShapeCasts S16x1024
  slices_S16x1024x2_S16x1024x1_0_0_0 : S16x1024x2.Slices ![0, 0, 0] S16x1024x1
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S16x4096x1024 .f32) (main_arg1 : IVec S16x1024x2 32) (main_arg2 : IVec S16 32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : IVec S16x1024x1 32 := (extractStridedSlice S16x1024x1 ![0, 0, 1] · slices_S16x1024x2_S16x1024x1_0_0_1) main_arg1
  let main_v5 : IVec S16x1024 32 := shapeCast S16x1024 main_v4 shapeCasts_S16x1024x1_S16x1024
  let main_v6 : IVec S16x1024x1 32 := (extractStridedSlice S16x1024x1 ![0, 0, 0] · slices_S16x1024x2_S16x1024x1_0_0_0) main_arg1
  let main_v7 : IVec S16x1024 32 := shapeCast S16x1024 main_v6 shapeCasts_S16x1024x1_S16x1024
  let main_v8 : IVec S16x1024 32 := subi main_v5 main_v7
  let main_c_0 : IVec S_ 32 := constantI S_ 32 1#32
  let main_v9 : IVec S16x1024 32 := broadcastInDim S16x1024 ![] bcast_S_S16x1024 main_c_0
  let main_v10 : IVec S16x1024 32 := addi main_v8 main_v9
  let main_c_1 : IVec S_ 32 := constantI S_ 32 0#32
  let main_v11 : IVec S16x1024 32 := broadcastInDim S16x1024 ![] bcast_S_S16x1024 main_c_1
  let main_v12 : IVec S16x1024 1 := cmpi .ne main_v10 main_v11
  let main_c_2 : IVec S_ 1 := constantI S_ 1 1#1
  let main_v13 : IVec S_ 1 := (fun x v => Host.reduce IntOp.andi x v reducesTo_S16x1024_S_d0_1 h_S_) main_v12 main_c_2
  let main_v14 : IVec S_ 1 := andi main_v3 main_v13
  main_v14
-- ==== Kernel.lean ====
abbrev S16x4096x1024 : Shape := ⟨3, ![16, 4096, 1024]⟩
abbrev S16x1024x2 : Shape := ⟨3, ![16, 1024, 2]⟩
abbrev S16 : Shape := ⟨1, ![16]⟩
abbrev S16x1024x1 : Shape := ⟨3, ![16, 1024, 1]⟩
abbrev S16x1024 : Shape := ⟨2, ![16, 1024]⟩
abbrev S1024 : Shape := ⟨1, ![1024]⟩
abbrev S1x1024 : Shape := ⟨2, ![1, 1024]⟩
abbrev S16x1 : Shape := ⟨2, ![16, 1]⟩
abbrev S_ : Shape := ⟨0, ![]⟩
abbrev S16x1x1024 : Shape := ⟨3, ![16, 1, 1024]⟩
abbrev S16x1024x1024 : Shape := ⟨3, ![16, 1024, 1024]⟩
abbrev S1x1x1024 : Shape := ⟨3, ![1, 1, 1024]⟩
abbrev S1x1024x1024 : Shape := ⟨3, ![1, 1024, 1024]⟩
abbrev S1024x1024 : Shape := ⟨2, ![1024, 1024]⟩
abbrev S1024x1 : Shape := ⟨2, ![1024, 1]⟩

abbrev nBuf : Space → Nat
  | .hbm => 30
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S16x1024x2, .i32⟩
  | .hbm, ⟨2, _⟩ => ⟨S16, .i32⟩
  | .hbm, ⟨3, _⟩ => ⟨S16x1024x1, .i32⟩
  | .hbm, ⟨4, _⟩ => ⟨S16x1024, .i32⟩
  | .hbm, ⟨5, _⟩ => ⟨S16x1024x1, .i32⟩
  | .hbm, ⟨6, _⟩ => ⟨S16x1024, .i32⟩
  | .hbm, ⟨7, _⟩ => ⟨S1024, .i32⟩
  | .hbm, ⟨8, _⟩ => ⟨S1x1024, .i32⟩
  | .hbm, ⟨9, _⟩ => ⟨S16x1, .i32⟩
  | .hbm, ⟨10, _⟩ => ⟨S16x1024, .i32⟩
  | .hbm, ⟨11, _⟩ => ⟨S16x1024, .i32⟩
  | .hbm, ⟨12, _⟩ => ⟨S16x1024, .i1⟩
  | .hbm, ⟨13, _⟩ => ⟨S16x1024, .i32⟩
  | .hbm, ⟨14, _⟩ => ⟨S_, .i32⟩
  | .hbm, ⟨15, _⟩ => ⟨S16x1024, .i32⟩
  | .hbm, ⟨16, _⟩ => ⟨S16x1024, .i32⟩
  | .hbm, ⟨17, _⟩ => ⟨S16x1024, .f32⟩
  | .hbm, ⟨18, _⟩ => ⟨S_, .f32⟩
  | .hbm, ⟨19, _⟩ => ⟨S16x1024, .f32⟩
  | .hbm, ⟨20, _⟩ => ⟨S16x1024, .f32⟩
  | .hbm, ⟨21, _⟩ => ⟨S_, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1x1024, .i32⟩
  | .hbm, ⟨26, _⟩ => ⟨S16x1x1024, .i32⟩
  | .hbm, ⟨27, _⟩ => ⟨S16x1x1024, .f32⟩
  | .hbm, ⟨28, _⟩ => ⟨S16x1024x1024, .f32⟩
  | .hbm, ⟨29, _⟩ => ⟨S16x1024, .i32⟩
  | .local _ .vmem, ⟨0, _⟩ => ⟨S1x1x1024, .i32⟩
  | .local _ .vmem, ⟨1, _⟩ => ⟨S1x1x1024, .i32⟩
  | .local _ .vmem, ⟨2, _⟩ => ⟨S1x1x1024, .i32⟩
  | .local _ .vmem, ⟨3, _⟩ => ⟨S1x1x1024, .i32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_17 : BitVec 32 := 0#32
  let v36 : BitVec 1 := Scalar.cmpi .ne v35 c0_i32_17
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S16x1024x2_S16x1024x1_0_0_0 : S16x1024x2.Slices ![0, 0, 0] S16x1024x1
  shapeCasts_S16x1024x1_S16x1024 : S16x1024x1.ShapeCasts S16x1024
  slices_S16x1024x2_S16x1024x1_0_0_1 : S16x1024x2.Slices ![0, 0, 1] S16x1024x1
  bcast_S1024_S1x1024_1 : S1024.BroadcastsInDim S1x1024 (![1] : Fin 1 → Fin S1x1024.rank)
  bcast_S16_S16x1_0 : S16.BroadcastsInDim S16x1 (![0] : Fin 1 → Fin S16x1.rank)
  bcast_S1x1024_S16x1024_0_1 : S1x1024.BroadcastsInDim S16x1024 (![0, 1] : Fin 2 → Fin S16x1024.rank)
  bcast_S16x1_S16x1024_0_1 : S16x1.BroadcastsInDim S16x1024 (![0, 1] : Fin 2 → Fin S16x1024.rank)
  bcast_S_S16x1024 : S_.BroadcastsInDim S16x1024 (![] : Fin 0 → Fin S16x1024.rank)
  shapeCasts_S16x1024_S16x1x1024 : S16x1024.ShapeCasts S16x1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  iota_S1024x1_d0_w32 : S1024x1.Iotas .tc 32 [0]
  broadcasts_S1024x1_S1024x1024 : S1024x1.Broadcasts S1024x1024
  broadcasts_S1x1024_S1024x1024 : S1x1024.Broadcasts S1024x1024
  shapeCasts_S1x1024_S1x1024 : S1x1024.ShapeCasts S1x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  natLt_1_32 : 1 < 32
  dot_S1024x1024_S1024x1024_S1024x1024_0_0_1_1_n_n_wf : DotDims.WF S1024x1024 S1024x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S16x1x1024.size a
  hwx0_0 : ∀ i : grid0.Coords, EltTy.bits .i32 = 32 ∨ (Rect.block (s := S16x1x1024) S1x1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S16x1x1024.size a
  hwx0_1 : ∀ i : grid0.Coords, EltTy.bits .i32 = 32 ∨ (Rect.block (s := S16x1x1024) S1x1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x1024.size a
  hwx0_2 : ∀ i : grid0.Coords, EltTy.bits .f32 = 32 ∨ (Rect.block (s := S16x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S16x4096x1024.size a
  hwx0_3 : ∀ i : grid0.Coords, EltTy.bits .f32 = 32 ∨ (Rect.block (s := S16x4096x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S16x1024x1024.size a
  hwx0_4 : ∀ i : grid0.Coords, EltTy.bits .f32 = 32 ∨ (Rect.block (s := S16x1024x1024) S1x1024x1024.size (cc0_transform_4 i) (hinb0_4 i)).WholeWords (EltTy.packing .f32)

variable [Facts₀]

def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev win0_0 : Pipeline.Window sig grid0 :=
  Pipeline.Window.ofSpec (Memref.whole main_v17) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x4096x1024 : Shape := ⟨3, ![16, 4096, 1024]⟩
abbrev S16x1024x2 : Shape := ⟨3, ![16, 1024, 2]⟩
abbrev S16 : Shape := ⟨1, ![16]⟩
abbrev S16x1024x1 : Shape := ⟨3, ![16, 1024, 1]⟩
abbrev S16x1024 : Shape := ⟨2, ![16, 1024]⟩
abbrev S4096 : Shape := ⟨1, ![4096]⟩
abbrev S1024 : Shape := ⟨1, ![1024]⟩
abbrev S1x1024 : Shape := ⟨2, ![1, 1024]⟩
abbrev S16x1 : Shape := ⟨2, ![16, 1]⟩
abbrev S1x1x4096 : Shape := ⟨3, ![1, 1, 4096]⟩
abbrev S16x1024x4096 : Shape := ⟨3, ![16, 1024, 4096]⟩
abbrev S_ : Shape := ⟨0, ![]⟩
abbrev S16x1024x1024 : Shape := ⟨3, ![16, 1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x1024x2, .i32⟩
  | .hbm, ⟨2, _⟩ => ⟨S16, .i32⟩
  | .hbm, ⟨3, _⟩ => ⟨S16x1024x1, .i32⟩
  | .hbm, ⟨4, _⟩ => ⟨S16x1024, .i32⟩
  | .hbm, ⟨5, _⟩ => ⟨S16x1024x1, .i32⟩
  | .hbm, ⟨6, _⟩ => ⟨S16x1024, .i32⟩
  | .hbm, ⟨7, _⟩ => ⟨S4096, .i32⟩
  | .hbm, ⟨8, _⟩ => ⟨S1024, .i32⟩
  | .hbm, ⟨9, _⟩ => ⟨S1x1024, .i32⟩
  | .hbm, ⟨10, _⟩ => ⟨S16x1, .i32⟩
  | .hbm, ⟨11, _⟩ => ⟨S16x1024, .i32⟩
  | .hbm, ⟨12, _⟩ => ⟨S16x1024, .i32⟩
  | .hbm, ⟨13, _⟩ => ⟨S16x1024, .i1⟩
  | .hbm, ⟨14, _⟩ => ⟨S1x1x4096, .i32⟩
  | .hbm, ⟨15, _⟩ => ⟨S16x1024x1, .i32⟩
  | .hbm, ⟨16, _⟩ => ⟨S16x1024x4096, .i32⟩
  | .hbm, ⟨17, _⟩ => ⟨S16x1024x4096, .i32⟩
  | .hbm, ⟨18, _⟩ => ⟨S16x1024x4096, .i1⟩
  | .hbm, ⟨19, _⟩ => ⟨S1x1x4096, .i32⟩
  | .hbm, ⟨20, _⟩ => ⟨S16x1024x1, .i32⟩
  | .hbm, ⟨21, _⟩ => ⟨S16x1024x4096, .i32⟩
  | .hbm, ⟨22, _⟩ => ⟨S16x1024x4096, .i32⟩
  | .hbm, ⟨23, _⟩ => ⟨S16x1024x4096, .i1⟩
  | .hbm, ⟨24, _⟩ => ⟨S16x1024x4096, .i1⟩
  | .hbm, ⟨25, _⟩ => ⟨S16x1024, .i32⟩
  | .hbm, ⟨26, _⟩ => ⟨S_, .i32⟩
  | .hbm, ⟨27, _⟩ => ⟨S16x1024, .i32⟩
  | .hbm, ⟨28, _⟩ => ⟨S16x1024, .i32⟩
  | .hbm, ⟨29, _⟩ => ⟨S16x1024, .f32⟩
  | .hbm, ⟨30, _⟩ => ⟨S16x1024x4096, .f32⟩
  | .hbm, ⟨31, _⟩ => ⟨S16x1024x1, .f32⟩
  | .hbm, ⟨32, _⟩ => ⟨S16x1024x4096, .f32⟩
  | .hbm, ⟨33, _⟩ => ⟨S16x1024x4096, .f32⟩
  | .hbm, ⟨34, _⟩ => ⟨S16x1024x1, .i1⟩
  | .hbm, ⟨35, _⟩ => ⟨S16x1024x1, .f32⟩
  | .hbm, ⟨36, _⟩ => ⟨S16x1024x4096, .f32⟩
  | .hbm, ⟨37, _⟩ => ⟨S16x1024x4096, .f32⟩
  | .hbm, ⟨38, _⟩ => ⟨S16x1024x1024, .f32⟩
  | .hbm, ⟨39, _⟩ => ⟨S16x1024, .i32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_c : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩

abbrev nD : Nat := 1
abbrev τ : Topo := Topo.v7x

variable {F : FTy → Type} [FloatOps F]

class Facts₀ : Prop where
  slices_S16x1024x2_S16x1024x1_0_0_0 : S16x1024x2.Slices ![0, 0, 0] S16x1024x1
  shapeCasts_S16x1024x1_S16x1024 : S16x1024x1.ShapeCasts S16x1024
  slices_S16x1024x2_S16x1024x1_0_0_1 : S16x1024x2.Slices ![0, 0, 1] S16x1024x1
  bcast_S1024_S1x1024_1 : S1024.BroadcastsInDim S1x1024 (![1] : Fin 1 → Fin S1x1024.rank)
  bcast_S16_S16x1_0 : S16.BroadcastsInDim S16x1 (![0] : Fin 1 → Fin S16x1.rank)
  bcast_S1x1024_S16x1024_0_1 : S1x1024.BroadcastsInDim S16x1024 (![0, 1] : Fin 2 → Fin S16x1024.rank)
  bcast_S16x1_S16x1024_0_1 : S16x1.BroadcastsInDim S16x1024 (![0, 1] : Fin 2 → Fin S16x1024.rank)
  bcast_S4096_S1x1x4096_2 : S4096.BroadcastsInDim S1x1x4096 (![2] : Fin 1 → Fin S1x1x4096.rank)
  bcast_S16x1024_S16x1024x1_0_1 : S16x1024.BroadcastsInDim S16x1024x1 (![0, 1] : Fin 2 → Fin S16x1024x1.rank)
  bcast_S1x1x4096_S16x1024x4096_0_1_2 : S1x1x4096.BroadcastsInDim S16x1024x4096 (![0, 1, 2] : Fin 3 → Fin S16x1024x4096.rank)
  bcast_S16x1024x1_S16x1024x4096_0_1_2 : S16x1024x1.BroadcastsInDim S16x1024x4096 (![0, 1, 2] : Fin 3 → Fin S16x1024x4096.rank)
  bcast_S_S16x1024 : S_.BroadcastsInDim S16x1024 (![] : Fin 0 → Fin S16x1024.rank)
  natLt_1_32 : 1 < 32
  dot_S16x1024x4096_S16x4096x1024_S16x1024x1024_2_1_1_2_0_0_wf : DotDims.WF S16x1024x4096 S16x4096x1024 S16x1024x1024 [2] [1] [1] [2] [0] [0]

variable [Facts₀]

def dot_S16x1024x4096_S16x4096x1024_S16x1024x1024_2_1_1_2_0_0 : DotDims S16x1024x4096 S16x4096x1024 S16x1024x1024 where
  lhsContracting := [2]
  rhsContracting := [1]
  lhsNonContracting := [1]
  rhsNonContracting := [2]
  lhsBatch := [0]
  rhsBatch := [0]
  wf := dot_S16x1024x4096_S16x4096x1024_S16x1024x1024_2_1_1_2_0_0_wf

class Facts : Prop extends Facts₀ where

variable [Facts]
-- ==== Proof.Pieces.lean ====
/-
  What each case of the kernel body leaves behind, as values.

  The body keeps a [1024,1024] accumulator (words × features) across the four sequence tiles of one batch row.
  On the first tile it stores zeros and then accumulator + (this tile's pooled product); on the later tiles
  it stores accumulator + product over what the previous tile left; on the last tile it also copies the
  accumulator, reshaped to [1,1024,1024], into the output block.  The generated run finds these stores as
  pieces; here each piece list is read back as the one payload term it denotes:
    first tile   : step applied to the zero block,
    middle tiles : step applied to the carried accumulator,
    last tile    : the same step, and the output block is its reshape.
  Everything is generic in the float instance.
-/
import proofs.«118982_j86431921865311_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.PoolValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (a2 : Memref sig .tc .vmem S1x1x1024 .i32) (h2 : a2.IsWhole) (a3 : Memref sig .tc .vmem S1x1x1024 .i32) (h3 : a3.IsWhole)
  (a4 : Memref sig .tc .vmem S1x1x1024 .f32) (h4 : a4.IsWhole) (a5 : Memref sig .tc .vmem S1x1024x1024 .f32) (h5 : a5.IsWhole)
  (a6 : Memref sig .tc .vmem S1x1024x1024 .f32) (h6 : a6.IsWhole) (a7 : Memref sig .tc .vmem S1024x1024 .f32) (h7 : a7.IsWhole)
  (x0 : Vec F S1x1x1024 .i32) (x1 : Vec F S1x1x1024 .i32) (x2 : Vec F S1x1x1024 .f32) (x3 : Vec F S1x1024x1024 .f32)

/-- Middle tiles: the accumulator ends at the step applied to what the tile before left. -/
theorem scr_B (hc0 : ¬cond0_0 i) (hc1 : ¬cond0_1 i) (xs0 : Vec F S1024x1024 .f32) :
    sout0_B_0 c i a2 h2 a3 h3 a4 h4 a5 h5 a6 h6 a7 h7 hc0 hc1 x0 x1 x2 x3 xs0 = k0_pay3 i x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  rw [View.canon_unit_zero hz2]
  simp only [View.readAt_eq_ld, h2.read_unread, h3.read_unread, h4.read_unread, h5.read_unread, h7.read_unread,
    View.ld_unit_zero (S := S1x1x1024) hz3, View.ld_unit_zero (S := S1x1024x1024) hz3, View.ld_unit_zero (S := S1024x1024) hz2]

/-- First tile: the zero block is stored, read back, and the step applied to it. -/
theorem scr_A (hc0 : cond0_0 i) (hc1 : ¬cond0_1 i) :
    sout0_A_0 c i a2 h2 a3 h3 a4 h4 a5 h5 a6 h6 a7 h7 hc0 hc1 x0 x1 x2 x3 = k0_pay3 i x0 x1 x2 x3 k0_pay2 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1024x1024) hz2, View.readCov_unit_zero (S := S1024x1024) _ hz2]
  simp only [View.readAt_eq_ld, h2.read_unread, h3.read_unread, h4.read_unread, h5.read_unread,
    View.ld_unit_zero (S := S1x1x1024) hz3, View.ld_unit_zero (S := S1x1024x1024) hz3]

/-- Last tile, the accumulator: the same step as on a middle tile. -/
theorem scr_C (hc0 : ¬cond0_0 i) (hc1 : cond0_1 i) (xs0 : Vec F S1024x1024 .f32) :
    sout0_C_0 c i a2 h2 a3 h3 a4 h4 a5 h5 a6 h6 a7 h7 hc0 hc1 x0 x1 x2 x3 xs0 = k0_pay3 i x0 x1 x2 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz2]
  simp only [View.readAt_eq_ld, h2.read_unread, h3.read_unread, h4.read_unread, h5.read_unread, h7.read_unread,
    View.ld_unit_zero (S := S1x1x1024) hz3, View.ld_unit_zero (S := S1x1024x1024) hz3, View.ld_unit_zero (S := S1024x1024) hz2]

/-- Last tile, the output block: the final accumulator, reshaped. -/
theorem out_C (hc0 : ¬cond0_0 i) (hc1 : cond0_1 i) (xs0 : Vec F S1024x1024 .f32) :
    out0_C_4 c i a2 h2 a3 h3 a4 h4 a5 h5 a6 h6 a7 h7 hc0 hc1 x0 x1 x2 x3 xs0 = k0_pay1 (k0_pay3 i x0 x1 x2 x3 xs0) := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz3, View.readCov_unit_zero (S := S1024x1024) _ hz2]
  simp only [View.readAt_eq_ld, h2.read_unread, h3.read_unread, h4.read_unread, h5.read_unread, h7.read_unread,
    View.ld_unit_zero (S := S1x1x1024) hz3, View.ld_unit_zero (S := S1x1024x1024) hz3, View.ld_unit_zero (S := S1024x1024) hz2]

end Cert.KernelIdeal.PoolValue

end
-- ==== Proof.Chain.lean ====
/-
  The accumulator along the grid, as a recursion on the grid position.

  The 64 grid positions are 16 batch rows × 4 sequence tiles, tile fastest.  After the body at position n the
  carried accumulator holds  step_n(prev),  where step_n adds tile n's pooled product and prev is the zero block
  at the first tile of a batch row (n ≡ 0 mod 4) and the accumulator left by position n − 1 otherwise.  What the
  generated run records per position (its case analysis on n mod 4) is exactly this recursion (acc_eq), and at
  a last tile (n ≡ 3 mod 4) the output block is the accumulator reshaped (block_eq).  Generic in the float
  instance; by induction on the position, never by enumerating the grid.
-/
import proofs.«118982_j86431921865311_1_alg».proof.Proof.Pieces

set_option maxRecDepth 16384

noncomputable section

open Idealize.ShloMosaic Idealize.ShloMosaic.TcCoe Idealize.SL.Sem
open Idealize.ShloMosaic.Pipeline (Dat)

namespace Cert.KernelIdeal.PoolValue

open Cert.KernelIdeal Cert.KernelIdeal.Gen

variable {F : FTy → Type} [FloatOps F]
variable (m : (ℓ : Loc nD τ sig) → Buf (Elt F) ℓ)

/-- The accumulation step of grid position t, applied to a previous accumulator: that position's blocks of the
    start, end and weight rows and of the hidden states go in. -/
def stepAt (c : Dev nD) (t : Fin cfg0.N) (prev : Vec F S1024x1024 .f32) : Vec F S1024x1024 .f32 :=
  k0_pay3 (grid0.coords t) (iblk m c 0 t) (iblk m c 1 t) (iblk m c 2 t) (iblk m c 3 t) prev

/-- The three cases' accumulators and the last case's output block, at a grid position's own memrefs and blocks. -/
theorem scr_A_at (c : Dev nD) (t : Fin cfg0.N) (hc0 : cond0_0 (grid0.coords t)) (hc1 : ¬cond0_1 (grid0.coords t)) :
    sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) = stepAt m c t k0_pay2 :=
  scr_A c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) hc0 hc1
theorem scr_B_at (c : Dev nD) (t : Fin cfg0.N) (hc0 : ¬cond0_0 (grid0.coords t)) (hc1 : ¬cond0_1 (grid0.coords t))
    (xs0 : Vec F S1024x1024 .f32) :
    sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) xs0 = stepAt m c t xs0 :=
  scr_B c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) hc0 hc1 xs0
theorem scr_C_at (c : Dev nD) (t : Fin cfg0.N) (hc0 : ¬cond0_0 (grid0.coords t)) (hc1 : cond0_1 (grid0.coords t))
    (xs0 : Vec F S1024x1024 .f32) :
    sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) xs0 = stepAt m c t xs0 :=
  scr_C c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) hc0 hc1 xs0
theorem out_C_at (c : Dev nD) (t : Fin cfg0.N) (hc0 : ¬cond0_0 (grid0.coords t)) (hc1 : cond0_1 (grid0.coords t))
    (xs0 : Vec F S1024x1024 .f32) :
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) xs0 = k0_pay1 (stepAt m c t xs0) :=
  out_C c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) hc0 hc1 xs0

/-- The accumulator after the body at position n. -/
def acc (c : Dev nD) : (n : ℕ) → n < cfg0.N → Vec F S1024x1024 .f32
  | 0, h => stepAt m c ⟨0, h⟩ k0_pay2
  | n + 1, h => stepAt m c ⟨n + 1, h⟩ (if (n + 1) % 4 = 0 then k0_pay2 else acc c n (Nat.lt_of_succ_lt h))

theorem acc_zero (c : Dev nD) (h : 0 < cfg0.N) : acc m c 0 h = stepAt m c ⟨0, h⟩ k0_pay2 := rfl
theorem acc_succ (c : Dev nD) (n : ℕ) (h : n + 1 < cfg0.N) :
    acc m c (n + 1) h = stepAt m c ⟨n + 1, h⟩ (if (n + 1) % 4 = 0 then k0_pay2 else acc m c n (Nat.lt_of_succ_lt h)) := rfl

/-- The carried accumulator after position n, as the generated run records it, is the recursion above. -/
theorem acc_eq (c : Dev nD) : ∀ (n : ℕ) (h : n < cfg0.N), (outsAt0 m c n h).2 = acc m c n h
  | 0, h => by
    rw [outsAt0_A m c ⟨0, h⟩ (Nat.zero_mod 4) (by show ¬0 % 4 = 3; decide), acc_zero]
    dsimp only
    exact scr_A_at m c ⟨0, h⟩ _ _
  | n + 1, h => by
    rw [acc_succ]
    by_cases h0 : (n + 1) % 4 = 0
    · have h1 : ¬(n + 1) % 4 = 3 := by omega
      rw [outsAt0_A m c ⟨n + 1, h⟩ h0 h1, if_pos h0]
      dsimp only
      exact scr_A_at m c ⟨n + 1, h⟩ _ _
    · rw [if_neg h0]
      by_cases h1 : (n + 1) % 4 = 3
      · rw [outsAt0_C m c ⟨n + 1, h⟩ h0 h1]
        dsimp only
        refine (scr_C_at m c ⟨n + 1, h⟩ _ _ _).trans ?_
        exact congrArg (stepAt m c ⟨n + 1, h⟩) (acc_eq c n (Nat.lt_of_succ_lt h))
      · rw [outsAt0_B m c ⟨n + 1, h⟩ h0 h1]
        dsimp only
        refine (scr_B_at m c ⟨n + 1, h⟩ _ _ _).trans ?_
        exact congrArg (stepAt m c ⟨n + 1, h⟩) (acc_eq c n (Nat.lt_of_succ_lt h))

/-- At a last tile the output block is that position's accumulator, reshaped to [1,1024,1024]. -/
theorem block_eq (c : Dev nD) (t : Fin cfg0.N) (h0 : ¬t.val % 4 = 0) (h1 : t.val % 4 = 3) :
    (outsAt0 m c t.val t.isLt).1 = k0_pay1 (acc m c t.val t.isLt) := by
  obtain ⟨n, hn⟩ := t
  cases n with
  | zero => exact absurd (Nat.zero_mod _) h0
  | succ n =>
    have h0' : ¬(n + 1) % 4 = 0 := h0
    rw [outsAt0_C m c ⟨n + 1, hn⟩ h0 h1]
    dsimp only
    refine (out_C_at m c ⟨n + 1, hn⟩ _ _ _).trans ?_
    rw [acc_succ, if_neg h0']
    exact congrArg (fun a => k0_pay1 (stepAt m c ⟨n + 1, hn⟩ a)) (acc_eq m c n (Nat.lt_of_succ_lt hn))

end Cert.KernelIdeal.PoolValue

end
-- ==== Proof.Spec.lean ====
/-
  Span mean pooling, stated once, entry by entry over the extended reals.

  For batch row b, word w and feature h the pooled value is
      P[b,w,h] = ∑ s < 4096, c[b,w,s] · x[b,s,h],
  where the coefficient c[b,w,s] is the word's weight when position s lies in the word's closed span
  [start, end] (compared as signed 32-bit words) and 0 otherwise; the weight is 1/len for a valid word and 0
  for an invalid one, len the span length as a real number.

  Two arrangements of the coefficient occur.  One selects: inside ? (valid ? 1/len : 0) : 0.  The other
  multiplies 0/1 indicators: ([inside] / len) · [valid].  They agree whenever len is a NONZERO real
  (coef_indicator): for an outside position 0/len = 0, for an inside one 1/len · 1 = 1/len and 1/len · 0 = 0.
  At len = 0 they differ (0/0 is not 0), which is why the length is required to be nonzero.

  The sum over the 4096 positions is also split into four consecutive tiles of 1024 positions
  (tile_step, tile_zero, tile_all): the running sum over the first k+1 tiles is the running sum over the
  first k plus the (k+1)-st tile's own sum.  Only associativity and commutativity of addition on the extended
  reals are used, so nothing here needs the summands to be finite.
-/
import Idealize.ShloMosaic.PureOps.Ideal
import Idealize.ShloMosaic.PureOps.Ideal.Laws
import Idealize.ShloMosaic.Lib.ValueIdx

noncomputable section

namespace Cert.Pool

open Idealize.ShloMosaic Idealize.ShloMosaic.ValueIdx

/-- The bit "position p lies in the closed span [st, en]", the three read as signed 32-bit words. -/
def inSpan (st en p : BitVec 32) : BitVec 1 :=
  IntOp.andi (IntOp.cmpi .sge p st) (IntOp.cmpi .sle p en)

/-- A word's weight: 1/len when the word is valid, 0 otherwise. -/
def weight (vl : BitVec 1) (len : EReal) : EReal := Scalar.select vl (Ideal.div 1 len) 0

/-- The pooling coefficient of position p for a word with span [st, en], validity bit vl and length len:
    the word's weight inside the span, 0 outside. -/
def coef (st en : BitVec 32) (vl : BitVec 1) (len : EReal) (p : BitVec 32) : EReal :=
  Scalar.select (inSpan st en p) (weight vl len) 0

/-- The 32-bit float word 0x3F800000 is the number 1. -/
theorem one_f32 : Ideal.ofBits .f32 0x3F800000#32 = 1 := by
  simp [Ideal.ofBits, Ideal.ieee]
  rw [← EReal.coe_mul]
  norm_num

/-- A non-zero 32-bit word, read signed, is a non-zero real. -/
theorem toInt_cast_ne_zero {x : BitVec 32} (hx : x ≠ 0#32) : ((x.toInt : ℤ) : ℝ) ≠ 0 :=
  Int.cast_ne_zero.mpr fun h => hx (BitVec.eq_of_toInt_eq (h.trans BitVec.toInt_zero.symm))

theorem bit_cases (b : BitVec 1) : b = 0#1 ∨ b = 1#1 := by
  revert b; decide

/-- The product-of-indicators arrangement IS the coefficient when the length is a nonzero real. -/
theorem coef_indicator (st en p : BitVec 32) (vl : BitVec 1) (z : ℝ) (hz : z ≠ 0) :
    Ideal.div ((((inSpan st en p).toNat : ℝ)) : EReal) ((z : ℝ) : EReal) * (((vl.toNat : ℝ)) : EReal)
      = coef st en vl ((z : ℝ) : EReal) p := by
  unfold coef weight
  generalize inSpan st en p = b
  rcases bit_cases b with rfl | rfl <;> rcases bit_cases vl with rfl | rfl
  · rw [select_zero, Ideal.div_coe hz]; simp
  · rw [select_zero, Ideal.div_coe hz]; simp
  · rw [select_one, select_zero]; simp
  · rw [select_one, select_one]; simp

/-! ## The sum over 4096 positions, tile by tile -/

/-- Nothing has been summed before the first tile. -/
theorem tile_zero (g : Fin 4096 → EReal) : (∑ s : Fin 4096, if s.val < 1024 * 0 then g s else 0) = 0 := by
  simp

/-- After the fourth tile everything has been summed. -/
theorem tile_all (g : Fin 4096 → EReal) : (∑ s : Fin 4096, if s.val < 1024 * 4 then g s else 0) = ∑ s : Fin 4096, g s :=
  Finset.sum_congr rfl fun s _ => if_pos (by have := s.isLt; omega)

/-- One more tile: the positions below 1024·(k+1) are those below 1024·k together with tile k's own
    1024 positions 1024·k + s'. -/
theorem tile_step (g : Fin 4096 → EReal) (k : ℕ) (hk : k < 4) :
    (∑ s : Fin 4096, if s.val < 1024 * (k + 1) then g s else 0)
      = (∑ s : Fin 4096, if s.val < 1024 * k then g s else 0)
        + ∑ s' : Fin 1024, g ⟨1024 * k + s'.val, by have := s'.isLt; omega⟩ := by
  have split : ∀ s : Fin 4096, (if s.val < 1024 * (k + 1) then g s else 0)
      = (if s.val < 1024 * k then g s else 0) + (if 1024 * k ≤ s.val ∧ s.val < 1024 * (k + 1) then g s else 0) := by
    intro s
    by_cases h1 : s.val < 1024 * k
    · rw [if_pos h1, if_pos (by omega), if_neg (by omega), add_zero]
    · by_cases h2 : s.val < 1024 * (k + 1)
      · rw [if_neg h1, if_pos h2, if_pos ⟨by omega, h2⟩, zero_add]
      · rw [if_neg h1, if_neg h2, if_neg (by omega), add_zero]
  rw [Finset.sum_congr rfl fun s _ => split s, Finset.sum_add_distrib]
  congr 1
  rw [← Finset.sum_filter]
  refine Finset.sum_bij' (fun s hs => (⟨s.val - 1024 * k, by
      have := (Finset.mem_filter.mp hs).2; omega⟩ : Fin 1024))
    (fun s' _ => (⟨1024 * k + s'.val, by have := s'.isLt; omega⟩ : Fin 4096))
    (fun _ _ => Finset.mem_univ _)
    (fun s' _ => Finset.mem_filter.mpr ⟨Finset.mem_univ _, by have := s'.isLt; dsimp only; omega⟩)
    (fun s hs => Fin.ext (by have := (Finset.mem_filter.mp hs).2; dsimp only; omega))
    (fun s' _ => Fin.ext (by dsimp only; omega))
    (fun s hs => congrArg g (Fin.ext (by have := (Finset.mem_filter.mp hs).2; dsimp only; omega)))

/-! ## The pooled array -/

/-- The pooled array, entry by entry: start and end words, validity bits and lengths per (batch row, word),
    the hidden states per (batch row, position, feature). -/
def pooled (st en : (⟨2, ![16, 1024]⟩ : Shape).Idx → BitVec 32) (vl : (⟨2, ![16, 1024]⟩ : Shape).Idx → BitVec 1)
    (len : (⟨2, ![16, 1024]⟩ : Shape).Idx → EReal) (x : (⟨3, ![16, 4096, 1024]⟩ : Shape).Idx → EReal) :
    (⟨3, ![16, 1024, 1024]⟩ : Shape).Idx → EReal :=
  fun i => ∑ s : Fin 4096,
    coef (st (ix2 (i 0) (i 1))) (en (ix2 (i 0) (i 1))) (vl (ix2 (i 0) (i 1))) (len (ix2 (i 0) (i 1))) (BitVec.ofNat 32 s.val)
      * x (ix3 (i 0) s (i 2))

end Cert.Pool

end
-- ==== Proof.LibMatmulTN.lean ====
/-
  A matrix product that contracts the FIRST axis of both operands (A-transposed times B), read at an entry.

  For a [K,M] left operand A and a [K,N] right operand B, contracted over their common axis 0 into a zero
  accumulator, the result at (p, q) is  ∑ k < K, A[k,p] · B[k,q]  over the extended reals: the textbook product
  AᵀB, whatever the operands' float formats (a change of format is the identity there).  Stated for any dimension
  record equal to `dims K M N` (contracting axes [0] and [0], free axes [1] and [1], no batch axes), generic in
  K, M, N.  This is the kernel spelling of jnp.einsum('sw,sh->wh', …).
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.MatmulTN

/-- The dimension numbers ⟨[0], [0], [1], [1], [], []⟩: a K×M operand and a K×N operand, both contracted on
    axis 0, giving M×N. -/
def dims (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : ℕ}

/-- The left operand is read at (contraction position, result row). -/
theorem lhs_0 (j : (⟨2, ![M, N]⟩ : Shape).Idx) (q : (dims K M N).contr.Idx) :
    ((dims K M N).lhsIdx j q 0).val = (q ⟨0, by rw [DotDims.rank_contr]; exact Nat.one_pos⟩).val :=
  (dims K M N).lhsIdx_val_of_single rfl j q
theorem lhs_1 (j : (⟨2, ![M, N]⟩ : Shape).Idx) (q : (dims K M N).contr.Idx) :
    ((dims K M N).lhsIdx j q 1).val = (j 0).val := by
  unfold DotDims.lhsIdx
  rw [dif_neg (show ¬(1 : Fin 2) ∈ (dims K M N).lhsBatch from List.not_mem_nil),
    dif_pos (show (1 : Fin 2) ∈ (dims K M N).lhsNonContracting from List.mem_singleton.mpr rfl)]
  rfl
/-- The right operand is read at (contraction position, result column). -/
theorem rhs_0 (j : (⟨2, ![M, N]⟩ : Shape).Idx) (q : (dims K M N).contr.Idx) :
    ((dims K M N).rhsIdx j q 0).val = (q ⟨0, by rw [DotDims.rank_contr]; exact Nat.one_pos⟩).val :=
  (dims K M N).rhsIdx_val_of_single rfl j q
theorem rhs_1 (j : (⟨2, ![M, N]⟩ : Shape).Idx) (q : (dims K M N).contr.Idx) :
    ((dims K M N).rhsIdx j q 1).val = (j 1).val := by
  unfold DotDims.rhsIdx
  rw [dif_neg (show ¬(1 : Fin 2) ∈ (dims K M N).rhsBatch from List.not_mem_nil),
    dif_pos (show (1 : Fin 2) ∈ (dims K M N).rhsNonContracting from List.mem_singleton.mpr rfl)]
  rfl

/-- A product contracting axis 0 of both operands, into zeros, at (p, q): the sum over the contracted position k
    of A[k,p] · B[k,q]. -/
theorem matmul_apply {φ₁ φ₂ : FTy} (D : DotDims ⟨2, ![K, M]⟩ ⟨2, ![K, N]⟩ ⟨2, ![M, N]⟩) (hD : D = dims K M N)
    (prec : Option ContractPrecision) (A : FVec Ideal ⟨2, ![K, M]⟩ φ₁) (B : FVec Ideal ⟨2, ![K, N]⟩ φ₂)
    (p : Fin M) (q : Fin N) :
    matmul D prec A B (constant (F := Ideal) ⟨2, ![M, N]⟩ .f32 0x00000000#32) (ix2 p q)
      = ∑ k : Fin K, A (ix2 k p) * B (ix2 k q) := by
  subst hD
  simp only [matmul]
  rw [Ideal.matmul_constant_zero_apply, ← Equiv.sum_comp (contrEquiv1 (dims K M N) K rfl rfl).symm]
  refine Finset.sum_congr rfl fun k _ => ?_
  have hk := contrEquiv1_symm_val (dims K M N) K rfl rfl k
  have el : (dims K M N).lhsIdx (ix2 p q) ((contrEquiv1 (dims K M N) K rfl rfl).symm k) = ix2 k p :=
    funext fun a => Fin.ext (by
      match a with
      | ⟨0, _⟩ => exact (lhs_0 _ _).trans hk
      | ⟨1, _⟩ => exact lhs_1 _ _)
  have er : (dims K M N).rhsIdx (ix2 p q) ((contrEquiv1 (dims K M N) K rfl rfl).symm k) = ix2 k q :=
    funext fun a => Fin.ext (by
      match a with
      | ⟨0, _⟩ => exact (rhs_0 _ _).trans hk
      | ⟨1, _⟩ => exact rhs_1 _ _)
  rw [el, er]

end Cert.MatmulTN

end
-- ==== Proof.TileRead.lean ====
/-
  One accumulation step of the kernel body, read at an entry over the extended reals.

  The step's payload is  acc + Pᵀ·X  for this tile:  P is the [1024 positions × 1024 words] pooling matrix of the
  tile (the word's weight where the tile's position, offset by 1024 · tile number, lies in the word's span, else 0)
  and X the tile's [1024 positions × 1024 features] block of hidden states; the product contracts the POSITION axis
  of both (axis 0 of each operand).  At entry (w, h):
      step(acc)[w,h] = acc[w,h] + ∑ s' < 1024, P[s',w] · X[s',h].
  Changes of float format are the identity over the extended reals, and the product accumulates into zeros.
-/
import proofs.«118982_j86431921865311_1_alg».proof.Proof.Gen.KernelIdeal.Skeleton
import proofs.«118982_j86431921865311_1_alg».proof.Proof.Spec
import proofs.«118982_j86431921865311_1_alg».proof.Proof.LibMatmulTN
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.TileRead

open Cert.KernelIdeal Cert.KernelIdeal.Gen Cert.Pool

/-- The product's dimension record: both operands contract their axis 0. -/
abbrev DD := dot_S1024x1024_S1024x1024_S1024x1024_0_0_1_1_n_n

/-- The tile's product contracts the position axis (axis 0) of both operands: at (w, h) the sum over the
    contracted position k of A[k,w] · B[k,h]. -/
theorem matmul_tn_apply (A B : FVec Ideal S1024x1024 .bf16) (w h : Fin 1024) :
    matmul DD none A B (constant (F := Ideal) S1024x1024 .f32 0x00000000#32) (ix2 w h)
      = ∑ k : Fin 1024, A (ix2 k w) * B (ix2 k h) :=
  Cert.MatmulTN.matmul_apply DD rfl none A B w h

/-- A column [a,1] broadcast along rows to [a,b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The position word of row s' of tile si: 1024 · si + s' (32-bit arithmetic). -/
theorem pos_word (si s' : ℕ) :
    IntOp.addi (Scalar.muli (BitVec.ofNat 32 si) 1024#32) (BitVec.ofNat 32 (0 * 1024 + s')) = BitVec.ofNat 32 (1024 * si + s') := by
  unfold IntOp.addi Scalar.muli IntOp.muli
  rw [Nat.zero_mul, Nat.zero_add, BitVec.ofNat_add, BitVec.ofNat_mul, BitVec.mul_comm]

/-- Row s' of the tile's position column holds s' (the row number along axis 0). -/
theorem iota_col (hI : S1024x1.Iotas .tc 32 [0]) (s' : Fin 1024) :
    iota .tc S1024x1 32 [0] hI (ix2 s' (0 : Fin 1)) = BitVec.ofNat 32 (0 * 1024 + s'.val) := rfl

/-- The accumulation step at entry (w, h): the accumulator there plus the tile's pooled sum over its 1024 positions. -/
theorem step_apply (i : grid0.Coords) (v3 v5 : Vec Ideal S1x1x1024 .i32) (v7 : Vec Ideal S1x1x1024 .f32)
    (v25 : Vec Ideal S1x1024x1024 .f32) (v29 : Vec Ideal S1024x1024 .f32) (w h : Fin 1024) :
    k0_pay3 (F := Ideal) i v3 v5 v7 v25 v29 (ix2 w h)
      = v29 (ix2 w h) + ∑ s' : Fin 1024,
          Scalar.select (inSpan (v3 (ix3 (0 : Fin 1) (0 : Fin 1) w)) (v5 (ix3 (0 : Fin 1) (0 : Fin 1) w))
              (BitVec.ofNat 32 (1024 * (i 1).val + s'.val)))
            (v7 (ix3 (0 : Fin 1) (0 : Fin 1) w)) 0 * v25 (ix3 (0 : Fin 1) s' h) := by
  unfold k0_pay3
  simp only [shapeCast_self]
  rw [addf_apply]
  refine congrArg (v29 (ix2 w h) + ·) ?_
  refine (matmul_tn_apply _ _ w h).trans ?_
  refine Finset.sum_congr rfl fun s' _ => ?_
  simp only [truncf_apply, select_apply, andi, cmpi, addi, broadcast_apply, broadcastTo_a1_ab_apply, broadcastTo_1b_ab_apply,
    shapeCast_1ab_ab_apply, Ideal.ofBits_def, Ideal.ofBits_zero_f32]
  rw [iota_col iota_S1024x1_d0_w32 s', pos_word]
  rfl

end Cert.KernelIdeal.TileRead

end
-- ==== Proof.BlockRead.lean ====
/-
  What the launch's windows show the body at a grid position, as entries of the staged arrays.

  Grid position t is batch row t / 4, sequence tile t % 4 (decided once over the 64 positions).  The start, end and
  weight windows show row (t/4, 0, ·) of their [16,1,1024] arrays; the hidden-state window shows rows
  1024·(t%4) … 1024·(t%4)+1023 of batch row t/4: a block's coordinate is always block index × block size + the
  coordinate inside the block.  Generic in the float instance.
-/
import proofs.«118982_j86431921865311_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.PoolValue

open Cert.KernelIdeal Cert.KernelIdeal.Gen

variable {F : FTy → Type} [FloatOps F]
variable (m : (ℓ : Loc nD τ sig) → Buf (Elt F) ℓ)

/-- The printed index maps, decided over the grid: every window follows the batch row t / 4 on axis 0, the
    hidden-state window also the tile t % 4 on axis 1; and the body's tile coordinate is t % 4. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = 0 ∧ win0_4.index t (2 : Fin 3) = 0
    ∧ ((grid0.coords t) (1 : Fin 2)).val = t.val % 4 :=
  (by decide +kernel : ∀ t : Fin grid0.N, _)

theorem t_lt (t : Fin cfg0.N) : t.val < 64 := lt_of_lt_of_eq t.isLt (show cfg0.N = 64 from N_0)

/-- The batch row of a grid position. -/
def rowOf (t : Fin cfg0.N) : Fin 16 := ⟨t.val / 4, by have := t_lt t; omega⟩

/-- The position, within the whole sequence, of row s' of the tile of a grid position. -/
def posOf (t : Fin cfg0.N) (s' : Fin 1024) : Fin 4096 := ⟨1024 * (t.val % 4) + s'.val, by have := s'.isLt; omega⟩

theorem iblk_start (c : Dev nD) (t : Fin cfg0.N) (w : Fin 1024) :
    (iblk m c 0 t : S1x1x1024.Idx → BitVec 32) (ix3 (0 : Fin 1) (0 : Fin 1) w)
      = (V m c main_v17 : S16x1x1024.Idx → BitVec 32) (ix3 (rowOf t) (0 : Fin 1) w) := by
  obtain ⟨e0, e1, e2, -⟩ := idx_facts t
  show (V m c main_v17 : S16x1x1024.Idx → BitVec 32) (((cfg0.win 0).blk t).view.emb (ix3 (0 : Fin 1) (0 : Fin 1) w)) = _
  refine congrArg (V m c main_v17 : S16x1x1024.Idx → BitVec 32) (funext fun a => Fin.ext ?_)
  match a with
  | ⟨0, _⟩ => show win0_0.index t (0 : Fin 3) * 1 + 1 * 0 = t.val / 4; omega
  | ⟨1, _⟩ => show win0_0.index t (1 : Fin 3) * 1 + 1 * 0 = 0; omega
  | ⟨2, _⟩ => show win0_0.index t (2 : Fin 3) * 1024 + 1 * w.val = w.val; omega

theorem iblk_end (c : Dev nD) (t : Fin cfg0.N) (w : Fin 1024) :
    (iblk m c 1 t : S1x1x1024.Idx → BitVec 32) (ix3 (0 : Fin 1) (0 : Fin 1) w)
      = (V m c main_v18 : S16x1x1024.Idx → BitVec 32) (ix3 (rowOf t) (0 : Fin 1) w) := by
  obtain ⟨-, -, -, e0, e1, e2, -⟩ := idx_facts t
  show (V m c main_v18 : S16x1x1024.Idx → BitVec 32) (((cfg0.win 1).blk t).view.emb (ix3 (0 : Fin 1) (0 : Fin 1) w)) = _
  refine congrArg (V m c main_v18 : S16x1x1024.Idx → BitVec 32) (funext fun a => Fin.ext ?_)
  match a with
  | ⟨0, _⟩ => show win0_1.index t (0 : Fin 3) * 1 + 1 * 0 = t.val / 4; omega
  | ⟨1, _⟩ => show win0_1.index t (1 : Fin 3) * 1 + 1 * 0 = 0; omega
  | ⟨2, _⟩ => show win0_1.index t (2 : Fin 3) * 1024 + 1 * w.val = w.val; omega

theorem iblk_weight (c : Dev nD) (t : Fin cfg0.N) (w : Fin 1024) :
    (iblk m c 2 t : S1x1x1024.Idx → Elt F .f32) (ix3 (0 : Fin 1) (0 : Fin 1) w)
      = (V m c main_v19 : S16x1x1024.Idx → Elt F .f32) (ix3 (rowOf t) (0 : Fin 1) w) := by
  obtain ⟨-, -, -, -, -, -, e0, e1, e2, -⟩ := idx_facts t
  show (V m c main_v19 : S16x1x1024.Idx → Elt F .f32) (((cfg0.win 2).blk t).view.emb (ix3 (0 : Fin 1) (0 : Fin 1) w)) = _
  refine congrArg (V m c main_v19 : S16x1x1024.Idx → Elt F .f32) (funext fun a => Fin.ext ?_)
  match a with
  | ⟨0, _⟩ => show win0_2.index t (0 : Fin 3) * 1 + 1 * 0 = t.val / 4; omega
  | ⟨1, _⟩ => show win0_2.index t (1 : Fin 3) * 1 + 1 * 0 = 0; omega
  | ⟨2, _⟩ => show win0_2.index t (2 : Fin 3) * 1024 + 1 * w.val = w.val; omega

theorem iblk_hidden (c : Dev nD) (t : Fin cfg0.N) (s' hh : Fin 1024) :
    (iblk m c 3 t : S1x1024x1024.Idx → Elt F .f32) (ix3 (0 : Fin 1) s' hh)
      = (V m c main_arg0 : S16x4096x1024.Idx → Elt F .f32) (ix3 (rowOf t) (posOf t s') hh) := by
  obtain ⟨-, -, -, -, -, -, -, -, -, e0, e1, e2, -⟩ := idx_facts t
  show (V m c main_arg0 : S16x4096x1024.Idx → Elt F .f32) (((cfg0.win 3).blk t).view.emb (ix3 (0 : Fin 1) s' hh)) = _
  refine congrArg (V m c main_arg0 : S16x4096x1024.Idx → Elt F .f32) (funext fun a => Fin.ext ?_)
  match a with
  | ⟨0, _⟩ => show win0_3.index t (0 : Fin 3) * 1 + 1 * 0 = t.val / 4; omega
  | ⟨1, _⟩ => show win0_3.index t (1 : Fin 3) * 1024 + 1 * s'.val = 1024 * (t.val % 4) + s'.val; omega
  | ⟨2, _⟩ => show win0_3.index t (2 : Fin 3) * 1024 + 1 * hh.val = hh.val; omega

end Cert.KernelIdeal.PoolValue

end
-- ==== Proof.HostRead.lean ====
/-
  The host side of the kernel's program, as values of the argument arrays.

  Before the launch the host prepares, per (batch row b, word w): the span's start and end words (two slices of the
  [16,1024,2] index argument), the validity bit  w < max_word_len[b]  (signed), the integer span length
  end − start + 1 (32-bit), and the weight  valid ? 1/len : 0;  start, end and weight are then reshaped to
  [16,1,1024] and handed to the launch.  After the launch the validity bits, widened to 32 bits, are the second
  result.  Here each staged array is read back as that term of the arguments, and at an entry (b, 0, w).
  Generic in the float instance.
-/
import proofs.«118982_j86431921865311_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.StableHlo Idealize.ShloMosaic.ValueIdx

namespace Cert.KernelIdeal.PoolValue

open Cert.KernelIdeal Cert.KernelIdeal.Gen

variable {F : FTy → Type} [FloatOps F]

/-- The first position word of every word's span. -/
def startW (a1 : IVec S16x1024x2 32) : IVec S16x1024 32 :=
  shapeCast S16x1024 (extractStridedSlice S16x1024x1 ![0, 0, 0] a1 slices_S16x1024x2_S16x1024x1_0_0_0) shapeCasts_S16x1024x1_S16x1024
/-- The last position word of every word's span. -/
def endW (a1 : IVec S16x1024x2 32) : IVec S16x1024 32 :=
  shapeCast S16x1024 (extractStridedSlice S16x1024x1 ![0, 0, 1] a1 slices_S16x1024x2_S16x1024x1_0_0_1) shapeCasts_S16x1024x1_S16x1024
/-- The validity bit of every word: its number is below the batch row's word count (signed). -/
def validB (a2 : IVec S16 32) : IVec S16x1024 1 :=
  cmpi .slt (broadcastInDim S16x1024 ![0, 1] bcast_S1x1024_S16x1024_0_1 (broadcastInDim S1x1024 ![1] bcast_S1024_S1x1024_1 (iotaInDim S1024 32 0)))
    (broadcastInDim S16x1024 ![0, 1] bcast_S16x1_S16x1024_0_1 (broadcastInDim S16x1 ![0] bcast_S16_S16x1_0 a2))
/-- The integer span length end − start + 1 of every word (32-bit arithmetic). -/
def lenW (a1 : IVec S16x1024x2 32) : IVec S16x1024 32 :=
  addi (subi (endW a1) (startW a1)) (broadcastInDim S16x1024 ![] bcast_S_S16x1024 (constantI S_ 32 1#32))
/-- The weight of every word: 1/len when valid, else 0. -/
def weightF (a1 : IVec S16x1024x2 32) (a2 : IVec S16 32) : FVec F S16x1024 .f32 :=
  select (validB a2)
    (Host.divf (broadcastInDim S16x1024 ![] bcast_S_S16x1024 (constant (F := F) S_ .f32 0x3F800000#32)) (sitofp .f32 (lenW a1)))
    (broadcastInDim S16x1024 ![] bcast_S_S16x1024 (id (constant (F := F) S_ .f32 0x00000000#32)))

variable (m : (ℓ : Loc nD τ sig) → Buf (Elt F) ℓ)

theorem V_start (c : Dev nD) : (V m c main_v17 : S16x1x1024.Idx → BitVec 32)
    = shapeCast S16x1x1024 (startW (m ((c : Thread nD τ).loc main_arg1))) shapeCasts_S16x1024_S16x1x1024 := by
  dsimp only [V, V0]
  simp only [hostOps0, hostOps0_1, hostOps0_2, List.flatten_cons, List.flatten_nil, List.append_nil, List.cons_append, List.nil_append]
  after_results <;> rfl

theorem V_end (c : Dev nD) : (V m c main_v18 : S16x1x1024.Idx → BitVec 32)
    = shapeCast S16x1x1024 (endW (m ((c : Thread nD τ).loc main_arg1))) shapeCasts_S16x1024_S16x1x1024 := by
  dsimp only [V, V0]
  simp only [hostOps0, hostOps0_1, hostOps0_2, List.flatten_cons, List.flatten_nil, List.append_nil, List.cons_append, List.nil_append]
  after_results <;> rfl

theorem V_weight (c : Dev nD) : (V m c main_v19 : S16x1x1024.Idx → Elt F .f32)
    = shapeCast S16x1x1024 (weightF (F := F) (m ((c : Thread nD τ).loc main_arg1)) (m ((c : Thread nD τ).loc main_arg2))) shapeCasts_S16x1024_S16x1x1024 := by
  unfold weightF validB lenW endW startW
  dsimp only [V, V0]
  simp only [hostOps0, hostOps0_1, hostOps0_2, List.flatten_cons, List.flatten_nil, List.append_nil, List.cons_append, List.nil_append]
  after_results_simp <;> rfl

theorem V_valid (c : Dev nD) : (V m c main_v9 : S16x1024.Idx → BitVec 1) = validB (m ((c : Thread nD τ).loc main_arg2)) := by
  dsimp only [V, V0]
  simp only [hostOps0, hostOps0_1, hostOps0_2, List.flatten_cons, List.flatten_nil, List.append_nil, List.cons_append, List.nil_append]
  after_results <;> rfl

/-- After the launch the second result holds the validity bits widened to 32 bits: the tail reads the bits as the
    prefix left them (they are no array of the launch). -/
theorem tail_mask (c : Dev nD) :
    (Pipeline.afterTail₀ cfgs (dats m) 0 (V0 m) [hostOps1] c main_v21 : S16x1024.Idx → BitVec 32)
      = extui 32 (validB (m ((c : Thread nD τ).loc main_arg2))) natLt_1_32 := by
  unfold Pipeline.afterTail₀
  show StableHlo.after hostOps1 _ (Proc.devRef .tc main_v21) = _
  after_results
  rw [Pipeline.withArrays_of_ne _ c (V0 m c) _ main_v9 (by exact (by decide : ∀ w, Pipeline.arrRef spec0 w ≠ main_v9))]
  exact congrArg (fun v => extui 32 v natLt_1_32) (V_valid m c)

/-- A [a,b] array reshaped to [a,1,b] reads, at (i, 0, j), the operand at (i, j). -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Cert.KernelIdeal.PoolValue

end
-- ==== Proof.Invariant.lean ====
/-
  The accumulator along the grid, entry by entry over the extended reals.

  Fix a core, and write  term[b,w,h](s) = c[b,w,s] · x[b,s,h]  for the product of the pooling coefficient of position
  s for word w of batch row b (the word's weight inside its span, 0 outside; the weight is valid ? 1/len : 0 as the
  host prepared it) with the hidden state.  At grid position t (batch row t/4, tile t%4) the step adds the tile's own
  1024 terms to the previous accumulator (stepAt_apply), so by induction on the position the accumulator after
  position n holds, at (w, h), the sum of term[n/4,w,h](s) over the positions s below 1024·(n%4 + 1) (acc_apply):
  the first tile starts from the zero block, a later tile from what the position before left, which belongs to the
  same batch row.  After a batch row's last tile every position has been summed (acc_last).
-/
import proofs.«118982_j86431921865311_1_alg».proof.Proof.Chain
import proofs.«118982_j86431921865311_1_alg».proof.Proof.TileRead
import proofs.«118982_j86431921865311_1_alg».proof.Proof.BlockRead
import proofs.«118982_j86431921865311_1_alg».proof.Proof.HostRead

set_option maxRecDepth 16384

noncomputable section

open Idealize.ShloMosaic Idealize.ShloMosaic.TcCoe Idealize.SL.Sem Idealize.ShloMosaic.ValueIdx

namespace Cert.KernelIdeal.PoolValue

open Cert.KernelIdeal Cert.KernelIdeal.Gen Cert.Pool Cert.KernelIdeal.TileRead

variable (m : (ℓ : Loc nD τ sig) → Buf (Elt Ideal) ℓ)

/-- The pooling coefficient of position word p for word w of batch row b, on core c: the host-prepared weight
    inside the word's span, 0 outside. -/
def kco (c : Dev nD) (b : Fin 16) (w : Fin 1024) (p : BitVec 32) : EReal :=
  Scalar.select (inSpan (startW (m ((c : Thread nD τ).loc main_arg1)) (ix2 b w)) (endW (m ((c : Thread nD τ).loc main_arg1)) (ix2 b w)) p)
    (weightF (F := Ideal) (m ((c : Thread nD τ).loc main_arg1)) (m ((c : Thread nD τ).loc main_arg2)) (ix2 b w)) 0

/-- One summand of the pooled value at (b, w, h): coefficient of position s times the hidden state there. -/
def term (c : Dev nD) (b : Fin 16) (w hh : Fin 1024) (s : Fin 4096) : EReal :=
  kco m c b w (BitVec.ofNat 32 s.val) * (m ((c : Thread nD τ).loc main_arg0) : S16x4096x1024.Idx → EReal) (ix3 b s hh)

/-- The sum of the summands over the positions below 1024·k. -/
def part (c : Dev nD) (b : Fin 16) (w hh : Fin 1024) (k : ℕ) : EReal :=
  ∑ s : Fin 4096, if s.val < 1024 * k then term m c b w hh s else 0

/-- The zero block is zero at every entry. -/
theorem zero_apply (w hh : Fin 1024) : k0_pay2 (F := Ideal) (ix2 w hh) = 0 := by
  unfold k0_pay2
  simp only [shapeCast_self]
  exact Ideal.ofBits_zero_f32

/-- The step of grid position t at entry (w, h): the previous accumulator there plus the 1024 summands of the
    position's tile, for the position's batch row. -/
theorem stepAt_apply (c : Dev nD) (t : Fin cfg0.N) (prev : Vec Ideal S1024x1024 .f32) (w hh : Fin 1024) :
    stepAt m c t prev (ix2 w hh) = prev (ix2 w hh) + ∑ s' : Fin 1024, term m c (rowOf t) w hh (posOf t s') := by
  have e := (idx_facts t).2.2.2.2.2.2.2.2.2.2.2.2.2.2.2
  unfold stepAt
  refine (step_apply (grid0.coords t) (iblk m c 0 t) (iblk m c 1 t) (iblk m c 2 t) (iblk m c 3 t) prev w hh).trans ?_
  refine congrArg (prev (ix2 w hh) + ·) (Finset.sum_congr rfl fun s' _ => ?_)
  rw [iblk_start m c t w, iblk_end m c t w, iblk_weight m c t w, iblk_hidden m c t s' hh, V_start, V_end, V_weight, V_main_arg0 m c,
    shapeCast_ab_a1b_apply, shapeCast_ab_a1b_apply, shapeCast_ab_a1b_apply, e]
  rfl

/-- One more tile of the position's batch row. -/
theorem part_step (c : Dev nD) (b : Fin 16) (w hh : Fin 1024) (t : Fin cfg0.N) :
    part m c b w hh (t.val % 4) + ∑ s' : Fin 1024, term m c b w hh (posOf t s') = part m c b w hh (t.val % 4 + 1) :=
  (tile_step (term m c b w hh) (t.val % 4) (Nat.mod_lt _ (by decide))).symm

theorem part_zero (c : Dev nD) (b : Fin 16) (w hh : Fin 1024) : part m c b w hh 0 = 0 := tile_zero _

/-- THE INVARIANT: after position n the accumulator holds, at (w, h), the summands of batch row n/4 over the
    positions of the tiles up to n%4. -/
theorem acc_apply (c : Dev nD) : ∀ (n : ℕ) (h : n < cfg0.N) (w hh : Fin 1024),
    acc m c n h (ix2 w hh) = part m c (rowOf ⟨n, h⟩) w hh (n % 4 + 1)
  | 0, h, w, hh => by
    rw [acc_zero, stepAt_apply, zero_apply, zero_add]
    have := part_step m c (rowOf ⟨0, h⟩) w hh ⟨0, h⟩
    rw [show (⟨0, h⟩ : Fin cfg0.N).val % 4 = 0 from rfl, part_zero, zero_add] at this
    exact this
  | n + 1, h, w, hh => by
    have hlt : n + 1 < 64 := lt_of_lt_of_eq h (show cfg0.N = 64 from N_0)
    rw [acc_succ, stepAt_apply]
    have hs := part_step m c (rowOf ⟨n + 1, h⟩) w hh ⟨n + 1, h⟩
    by_cases h0 : (n + 1) % 4 = 0
    · rw [if_pos h0, zero_apply, zero_add]
      rw [show (⟨n + 1, h⟩ : Fin cfg0.N).val % 4 = 0 from h0, part_zero, zero_add] at hs
      rw [h0]
      exact hs
    · rw [if_neg h0, acc_apply c n (Nat.lt_of_succ_lt h) w hh]
      have hb : rowOf ⟨n, Nat.lt_of_succ_lt h⟩ = rowOf ⟨n + 1, h⟩ := Fin.ext (by show n / 4 = (n + 1) / 4; omega)
      have hk : n % 4 + 1 = (n + 1) % 4 := by omega
      rw [hb, hk]
      exact hs

/-- After a batch row's last tile: the whole sum over the 4096 positions. -/
theorem acc_last (c : Dev nD) (t : Fin cfg0.N) (h1 : t.val % 4 = 3) (w hh : Fin 1024) :
    acc m c t.val t.isLt (ix2 w hh) = ∑ s : Fin 4096, term m c (rowOf t) w hh s := by
  rw [acc_apply m c t.val t.isLt w hh, h1]
  exact tile_all _

end Cert.KernelIdeal.PoolValue

end
-- ==== Proof.KernelValue.lean ====
/-
  The kernel program's results, as functions of its arguments.

  The output window is written back once per batch row, after the row's last tile (positions 4b + 3), and its block
  (b, 0, 0) of [1,1024,1024] is then the final accumulator.  So the block written at position t is block t/4 of ONE
  array: at (b, w, h) the sum over all 4096 positions s of the pooling coefficient times the hidden state
  (flushed_eq).  The sixteen written blocks cover the [16,1024,1024] result (cover: entry (b, w, h) lies in the
  block of position 4b + 3), so the result array ends at that array (final), which is the pooled array of Spec with
  the host-prepared weight read as valid ? 1/len : 0 (outArr_eq).  The second result is the validity bits widened
  to 32 bits, and the three arguments end unchanged (run).
-/
import proofs.«118982_j86431921865311_1_alg».proof.Proof.Invariant

set_option maxRecDepth 16384

noncomputable section

open Idealize.ShloMosaic Idealize.ShloMosaic.TcCoe Idealize.SL.Sem Idealize.ShloMosaic.ValueIdx
open Idealize.ShloMosaic.Pipeline (Dat)

namespace Cert.KernelIdeal.PoolValue

open Cert.KernelIdeal Cert.KernelIdeal.Gen Cert.Pool

variable (m : (ℓ : Loc nD τ sig) → Buf (Elt Ideal) ℓ) (ρ : Dev nD → PrngReg)

/-- The first result, entry by entry: at (b, w, h) the sum over all positions of coefficient times hidden state. -/
def outArr (c : Dev nD) : S16x1024x1024.Idx → EReal := fun i => ∑ s : Fin 4096, term m c (i 0) (i 1) (i 2) s

/-- Entry (0, w, h) of the output block of position t is entry (t/4, w, h) of the result array. -/
theorem emb_out (t : Fin cfg0.N) (w hh : Fin 1024) :
    ((cfg0.win 4).blk t).view.emb (ix3 (0 : Fin 1) w hh) = ix3 (rowOf t) w hh := by
  obtain ⟨-, -, -, -, -, -, -, -, -, -, -, -, e0, e1, e2, -⟩ := idx_facts t
  funext a; apply Fin.ext
  match a with
  | ⟨0, _⟩ => show win0_4.index t (0 : Fin 3) * 1 + 1 * 0 = t.val / 4; omega
  | ⟨1, _⟩ => show win0_4.index t (1 : Fin 3) * 1024 + 1 * w.val = w.val; omega
  | ⟨2, _⟩ => show win0_4.index t (2 : Fin 3) * 1024 + 1 * hh.val = hh.val; omega

/-- What a write-back writes is its block of the one result array. -/
theorem flushed_eq (c : Dev nD) (t : Fin cfg0.N) (hf : (cfg0.win 4).flush t = true) :
    (dats m 0 c).flushed 4 t = ((cfg0.win 4).blk t).view.read (Elt Ideal) (outArr m c) := by
  have h1 : t.val % 4 = 3 := (flush0_4 t).mp hf
  have h0 : ¬t.val % 4 = 0 := by omega
  show (cfg0.win 4).cut (grid0.coords t) ((dats m 0 c).after 4 t) = _
  rw [after0_4, block_eq m c t h0 h1]
  refine funext fun (y : S1x1024x1024.Idx) => ?_
  obtain ⟨u, w, hh, rfl⟩ : ∃ (u : Fin 1) (w hh : Fin 1024), y = ix3 u w hh := ⟨y 0, y 1, y 2, eq_ix3 y⟩
  obtain rfl : u = 0 := Subsingleton.elim _ _
  show k0_pay1 (acc m c t.val t.isLt) (ix3 (0 : Fin 1) w hh) = outArr m c (((cfg0.win 4).blk t).view.emb (ix3 (0 : Fin 1) w hh))
  rw [emb_out t w hh]
  unfold k0_pay1
  rw [shapeCast_ab_1ab_apply, acc_last m c t h1 w hh]
  rfl

/-- An entry of the result array is in position t's block iff each coordinate is in the block's range. -/
theorem mem_blk (t : Fin cfg0.N) (i : S16x1024x1024.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v20).slice (win0_4.rect t)).set ↔ _
  rw [View.set_slice_whole, Rect.mem_set_unit]
  exact Iff.rfl

/-- Every entry (b, w, h) is written back: by the last tile of batch row b. -/
theorem cover (i : S16x1024x1024.Idx) :
    ∃ t : Fin cfg0.N, (cfg0.win 4).flush t = true ∧ i ∈ ((cfg0.win 4).blk t).view.set := by
  have hi0 : (i 0).val < 16 := (i 0).isLt
  have hi1 : (i 1).val < 1024 := (i 1).isLt
  have hi2 : (i 2).val < 1024 := (i 2).isLt
  obtain ⟨t, ht⟩ : ∃ t : Fin cfg0.N, t.val = 4 * (i 0).val + 3 :=
    ⟨⟨4 * (i 0).val + 3, lt_of_lt_of_eq (by omega : 4 * (i 0).val + 3 < 64) (show cfg0.N = 64 from N_0).symm⟩, rfl⟩
  obtain ⟨-, -, -, -, -, -, -, -, -, -, -, -, e0, e1, e2, -⟩ := idx_facts t
  refine ⟨t, (flush0_4 t).mpr (by omega), ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

/-- The result array after the run. -/
theorem final (c : Dev nD) : (dats m 0 c).arrAt 4 cfg0.N = outArr m c :=
  (dats m 0 c).arrAt_eq_of_cover 4 (outArr m c) (flushed_eq m c) cover

/-- The host-prepared weight of a word: 1/len when valid, 0 otherwise, len the span length read signed. -/
theorem weightF_apply (a1 : IVec S16x1024x2 32) (a2 : IVec S16 32) (j : S16x1024.Idx) :
    weightF (F := Ideal) a1 a2 j = weight (validB a2 j) ((((lenW a1 j).toInt : ℤ) : ℝ) : EReal) := by
  show Scalar.select (validB a2 j) (Ideal.div (Ideal.ofBits .f32 0x3F800000#32) ((((lenW a1 j).toInt : ℤ) : ℝ) : EReal))
    (Ideal.ofBits .f32 0x00000000#32) = _
  rw [one_f32, Ideal.ofBits_zero_f32]
  rfl

/-- The first result is the pooled array of the arguments. -/
theorem outArr_eq (c : Dev nD) :
    outArr m c = pooled (startW (m ((c : Thread nD τ).loc main_arg1))) (endW (m ((c : Thread nD τ).loc main_arg1)))
      (validB (m ((c : Thread nD τ).loc main_arg2)))
      (fun j => ((((lenW (m ((c : Thread nD τ).loc main_arg1)) j).toInt : ℤ) : ℝ) : EReal))
      (m ((c : Thread nD τ).loc main_arg0)) := by
  funext i
  unfold outArr pooled
  refine Finset.sum_congr rfl fun s _ => ?_
  unfold term kco coef
  rw [weightF_apply]

/-- The run, read: both results named, the arguments unchanged. -/
theorem run : θ_run defs (onTc (τ := τ) (main (F := Ideal))) ⟨m, fun _ => 0, ρ⟩ fun r => ∀ c : Dev nD,
      r.2.mem ((c : Thread nD τ).loc main_v20) = outArr m c
      ∧ r.2.mem ((c : Thread nD τ).loc main_v21) = extui 32 (validB (m ((c : Thread nD τ).loc main_arg2))) natLt_1_32
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 4).trans (final m c),
      ((h c).2 main_v21 (Pipeline.mem_restRefs_of main_v21 (by decide) (by decide))).trans (tail_mask m c),
      ((h c).1 3).trans (((dats m 0 c).arrAt_in 3 rfl _).trans ((A_eq m c 3).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.PoolValue

end
-- ==== Proof.RefPool.lean ====
/-
  The reference program's first result, entry by entry over the extended reals.

  The reference builds, for every (batch row b, word w, position s), the coefficient
      ([s inside the word's span] / len[b,w]) · [word w is valid],
  the two brackets 0/1 indicators converted to floats and len the span length converted to a float, and
  contracts it with the hidden states over s.  Read at (b, w, h) this is the sum over the 4096 positions of that
  coefficient times x[b,s,h] (ref_apply).  When every length is a non-zero word the product of indicators is the
  select form of the coefficient (Spec: coef_indicator), so the result is the pooled array (ref_eq_pooled).
-/
import proofs.«118982_j86431921865311_1_alg».proof.Proof.Gen.ReferenceIdeal.Read
import proofs.«118982_j86431921865311_1_alg».proof.Proof.Spec

noncomputable section

open Idealize.ShloMosaic Idealize.ShloMosaic.ValueIdx

namespace Cert.ReferenceIdeal.RefPool

open Cert.ReferenceIdeal Cert.ReferenceIdeal.Read Cert.Pool

/-! The composed index maps of the reference's broadcasts, at (b, w, s). -/

theorem i14 (b : Fin 16) (w : Fin 1024) (s : Fin 4096) : idx_main_v12 (idx_main_v14 (ix3 b w s)) = ix2 b w :=
  funext fun a => Fin.ext (by match a with | ⟨0, _⟩ => rfl | ⟨1, _⟩ => rfl)
theorem i19 (b : Fin 16) (w : Fin 1024) (s : Fin 4096) : idx_main_v17 (idx_main_v19 (ix3 b w s)) = ix2 b w :=
  funext fun a => Fin.ext (by match a with | ⟨0, _⟩ => rfl | ⟨1, _⟩ => rfl)
theorem i28 (b : Fin 16) (w : Fin 1024) (s : Fin 4096) : idx_main_v27 (idx_main_v28 (ix3 b w s)) = ix2 b w :=
  funext fun a => Fin.ext (by match a with | ⟨0, _⟩ => rfl | ⟨1, _⟩ => rfl)
theorem i32 (b : Fin 16) (w : Fin 1024) (s : Fin 4096) : idx_main_v30 (idx_main_v32 (ix3 b w s)) = ix2 b w :=
  funext fun a => Fin.ext (by match a with | ⟨0, _⟩ => rfl | ⟨1, _⟩ => rfl)

/-- The reference's coefficient at (b, w, s): the span indicator over the length, times the validity indicator. -/
theorem ref_coef (x1 : (⟨S16x1024x2, .i32⟩ : BufTy).Contents (Elt Ideal)) (x2 : (⟨S16, .i32⟩ : BufTy).Contents (Elt Ideal))
    (b : Fin 16) (w : Fin 1024) (s : Fin 4096) :
    val_main_v33 (F := Ideal) x1 x2 (ix3 b w s)
      = Ideal.div ((((inSpan (val_main_v1 (F := Ideal) x1 (ix2 b w)) (val_main_v3 (F := Ideal) x1 (ix2 b w)) (BitVec.ofNat 32 s.val)).toNat : ℝ)) : EReal)
          (val_main_v25 (F := Ideal) x1 (ix2 b w))
        * ((((val_main_v10 (F := Ideal) x2 (ix2 b w)).toNat : ℝ)) : EReal) := by
  rw [val_main_v33_apply, val_main_v29_apply, val_main_v26_apply, val_main_v21_apply, val_main_v15_apply, val_main_v20_apply,
    val_main_v13_apply, val_main_v11_apply, val_main_v4_apply, val_main_v14_apply, val_main_v12_apply, i14,
    val_main_v18_apply, val_main_v16_apply, val_main_v4_apply, val_main_v19_apply, val_main_v17_apply, i19,
    val_main_v28_apply, val_main_v27_apply, i28, val_main_v32_apply, val_main_v31_apply, val_main_v30_apply, i32]
  rfl

/-- The reference's first result at (b, w, h): the sum over the positions of coefficient times hidden state. -/
theorem ref_apply (x0 : (⟨S16x4096x1024, .f32⟩ : BufTy).Contents (Elt Ideal)) (x1 : (⟨S16x1024x2, .i32⟩ : BufTy).Contents (Elt Ideal))
    (x2 : (⟨S16, .i32⟩ : BufTy).Contents (Elt Ideal)) (b : Fin 16) (w hh : Fin 1024) :
    val_main_v34 (F := Ideal) x0 x1 x2 (ix3 b w hh)
      = ∑ s : Fin 4096,
          (Ideal.div ((((inSpan (val_main_v1 (F := Ideal) x1 (ix2 b w)) (val_main_v3 (F := Ideal) x1 (ix2 b w)) (BitVec.ofNat 32 s.val)).toNat : ℝ)) : EReal)
              (val_main_v25 (F := Ideal) x1 (ix2 b w))
            * ((((val_main_v10 (F := Ideal) x2 (ix2 b w)).toNat : ℝ)) : EReal))
          * x0 (ix3 b s hh) := by
  rw [val_main_v34_apply]
  refine Finset.sum_congr rfl fun s _ => ?_
  have el : lidx_main_v34 (ix3 b w hh) s = ix3 b w s :=
    funext fun a => Fin.ext (by match a with | ⟨0, _⟩ => rfl | ⟨1, _⟩ => rfl | ⟨2, _⟩ => rfl)
  have er : ridx_main_v34 (ix3 b w hh) s = ix3 b s hh :=
    funext fun a => Fin.ext (by match a with | ⟨0, _⟩ => rfl | ⟨1, _⟩ => rfl | ⟨2, _⟩ => rfl)
  rw [el, er, ref_coef]

/-- With every span length a non-zero word, the reference's first result is the pooled array. -/
theorem ref_eq_pooled (x0 : (⟨S16x4096x1024, .f32⟩ : BufTy).Contents (Elt Ideal)) (x1 : (⟨S16x1024x2, .i32⟩ : BufTy).Contents (Elt Ideal))
    (x2 : (⟨S16, .i32⟩ : BufTy).Contents (Elt Ideal)) (hlen : ∀ j : S16x1024.Idx, val_main_v24 (F := Ideal) x1 j ≠ 0#32) :
    val_main_v34 (F := Ideal) x0 x1 x2
      = pooled (val_main_v1 (F := Ideal) x1) (val_main_v3 (F := Ideal) x1) (val_main_v10 (F := Ideal) x2)
          (fun j => ((((val_main_v24 (F := Ideal) x1 j).toInt : ℤ) : ℝ) : EReal)) x0 := by
  funext i
  obtain ⟨b, w, hh, rfl⟩ : ∃ (b : Fin 16) (w hh : Fin 1024), i = ix3 b w hh := ⟨i 0, i 1, i 2, eq_ix3 i⟩
  rw [ref_apply]
  unfold pooled
  refine Finset.sum_congr rfl fun s _ => ?_
  refine congrArg (· * x0 (ix3 b s hh)) ?_
  exact coef_indicator _ _ _ _ _ (toInt_cast_ne_zero (hlen (ix2 b w)))

end Cert.ReferenceIdeal.RefPool

end
-- ==== Proof.PreLen.lean ====
/-
  The precondition, decoded: every word's span length is non-zero.

  The precondition is the conjunction of two whole-array "all" reductions: every hidden state is finite, and for
  every (batch row, word) the 32-bit span length  end − start + 1  differs from 0.  Only the second is needed:
  the reference divides the 0/1 span indicator by that length.  An "all" reduction that answers 1 had a 1 at every
  entry, and the entry's bit is the comparison  length ≠ 0.
-/
import proofs.«118982_j86431921865311_1_alg».proof.Pre_finite_inputs
import proofs.«118982_j86431921865311_1_alg».proof.Proof.Gen.Pre_finite_inputs
import Idealize.ShloMosaic.Lib.ReduceAll
import Idealize.ShloMosaic.Lib.Affine
import Idealize.ShloMosaic.Lib.ValueIdx

noncomputable section

open Idealize.ShloMosaic

namespace Cert.PreLen

open Cert.Pre_finite_inputs Cert.Pre_finite_inputs.Facts

variable [Cert.Pre_finite_inputs.Facts]

instance : Subsingleton S_.Idx := ⟨fun a b => funext fun d => d.elim0⟩

/-- The span length as the precondition spells it: end − start + 1 on the two slices of the index argument. -/
def lenP (a1 : IVec S16x1024x2 32) : IVec S16x1024 32 :=
  addi (subi (shapeCast S16x1024 (extractStridedSlice S16x1024x1 ![0, 0, 1] a1 slices_S16x1024x2_S16x1024x1_0_0_1) shapeCasts_S16x1024x1_S16x1024)
      (shapeCast S16x1024 (extractStridedSlice S16x1024x1 ![0, 0, 0] a1 slices_S16x1024x2_S16x1024x1_0_0_0) shapeCasts_S16x1024x1_S16x1024))
    (broadcastInDim S16x1024 ![] bcast_S_S16x1024 (constantI S_ 32 1#32))

/-- Under the precondition no span length is the zero word. -/
theorem len_ne_zero {F : FTy → Type} [FloatOps F] (a0 : FVec F S16x4096x1024 .f32) (a1 : IVec S16x1024x2 32) (a2 : IVec S16 32)
    (h : fn (F := F) a0 a1 a2 = fun _ => 1#1) (i : S16x1024.Idx) : lenP a1 i ≠ 0#32 := by
  have h0 := congrFun h ValueIdx.ix0
  dsimp only [fn] at h0
  obtain ⟨-, h2⟩ := IntOp.andi_eq_one.mp h0
  have h3 := Host.reduce_andi_all _ _ _ _ _ h2 i
  exact IntOp.cmpi_ne.mp h3

end Cert.PreLen

end
-- ==== Proof.lean ====
/-
  Span mean pooling of token states into word states: a kernel that accumulates a pooling product over four
  sequence tiles per batch row, against a reference that forms the whole [16,1024,4096] pooling matrix and
  contracts it with the hidden states in one product.

  Over the extended reals both programs compute, at (batch row b, word w, feature h),
      ∑ s < 4096, c[b,w,s] · x[b,s,h],
  with c[b,w,s] the word's weight when position s lies in the word's span and 0 otherwise.  The kernel writes the
  coefficient as nested selections, inside ? (valid ? 1/len : 0) : 0, and sums tile by tile from a zero
  accumulator; the reference writes it as the product of 0/1 indicators ([inside]/len)·[valid] and sums in one
  contraction.  The two coefficients agree because every span length is a non-zero real under the precondition (the
  reference's own divisor; at a zero length 0/0 is not 0 and the two programs do differ), and regrouping the sum
  needs only associativity and commutativity of addition on the extended reals, so the finiteness of the hidden
  states is never used.  The second result, the validity bits as 32-bit integers, is the same term of the word
  counts in both programs.

  The three frames: the kernel's two programs by their generated frame certificates, the reference's by its
  generated run with the results dropped.  The idealization rewrote nothing.
-/
import proofs.«118982_j86431921865311_1_alg».proof.Defs
import proofs.«118982_j86431921865311_1_alg».proof.Proof.Gen.Kernel
import proofs.«118982_j86431921865311_1_alg».proof.Proof.Gen.Kernel.Skeleton
import proofs.«118982_j86431921865311_1_alg».proof.Proof.Gen.Kernel.Launch
import proofs.«118982_j86431921865311_1_alg».proof.Proof.Gen.Kernel.Points
import proofs.«118982_j86431921865311_1_alg».proof.Proof.Gen.Kernel.Frame
import proofs.«118982_j86431921865311_1_alg».proof.Proof.Gen.KernelIdeal
import proofs.«118982_j86431921865311_1_alg».proof.Proof.Gen.KernelIdeal.Skeleton
import proofs.«118982_j86431921865311_1_alg».proof.Proof.Gen.KernelIdeal.Launch
import proofs.«118982_j86431921865311_1_alg».proof.Proof.Gen.KernelIdeal.Points
import proofs.«118982_j86431921865311_1_alg».proof.Proof.Gen.KernelIdeal.Frame
import proofs.«118982_j86431921865311_1_alg».proof.Proof.Gen.ReferenceIdeal
import proofs.«118982_j86431921865311_1_alg».proof.Proof.Gen.Pre_finite_inputs
import proofs.«118982_j86431921865311_1_alg».proof.Proof.Gen.ReferenceIdeal.Run
import proofs.«118982_j86431921865311_1_alg».proof.Proof.Gen.ReferenceIdeal.Read
import proofs.«118982_j86431921865311_1_alg».proof.Proof.KernelValue
import proofs.«118982_j86431921865311_1_alg».proof.Proof.RefPool
import proofs.«118982_j86431921865311_1_alg».proof.Proof.PreLen
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the pooled array as first result and the widened validity bits as second: the kernel's
    by its run read back, the reference's by its run and the coefficient law under the non-zero lengths. -/
theorem algebraic : Cert.algebraic_KernelIdeal_ReferenceIdeal := by
  intro m ρ m' ρ' hpre hagree
  refine ⟨fun c => Cert.KernelIdeal.PoolValue.outArr m c,
    fun c => extui 32 (Cert.KernelIdeal.PoolValue.validB (m ((c : Thread Cert.KernelIdeal.nD Cert.KernelIdeal.τ).loc Cert.KernelIdeal.main_arg2))) Cert.KernelIdeal.Facts₀.natLt_1_32,
    Cert.KernelIdeal.PoolValue.run m ρ, ?_⟩
  refine (θ_run Cert.ReferenceIdeal.defs _ _).mono (fun _ h c => ?_) (Cert.ReferenceIdeal.Value.run (F := Ideal) m' ρ')
  obtain ⟨h1, h2, h3⟩ := h c
  have hlen : ∀ j : Cert.ReferenceIdeal.S16x1024.Idx,
      Cert.ReferenceIdeal.Read.val_main_v24 (F := Ideal) (m ((c : Thread Cert.KernelIdeal.nD Cert.KernelIdeal.τ).loc Cert.KernelIdeal.main_arg1)) j ≠ 0#32 :=
    fun j => Cert.PreLen.len_ne_zero _ _ _ (hpre c) j
  refine ⟨h1.trans ?_, h2.trans ?_, h3⟩
  · refine (Cert.ReferenceIdeal.Read.val_main_v34_eq _ _ _).trans ?_
    show _ = Cert.KernelIdeal.PoolValue.outArr m c
    rw [(hagree c).1, (hagree c).2.1, (hagree c).2.2, Cert.ReferenceIdeal.RefPool.ref_eq_pooled _ _ _ hlen,
      Cert.KernelIdeal.PoolValue.outArr_eq]
    rfl
  · refine (Cert.ReferenceIdeal.Read.val_main_v35_eq _).trans ?_
    rw [(hagree c).2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
